-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S256x256 : Shape := ⟨2, ![256, 256]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S256x256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x256x64x64 .f32) (main_arg1 : FVec F S32x256 .f32) (main_arg2 : FVec F S32x256 .f32) (main_arg3 : FVec F S256x256 .f32) (main_arg4 : FVec F S256 .f32) (main_arg5 : FVec F S256x256 .f32) (main_arg6 : FVec F S256 .f32) (main_arg7 : FVec F S256 .f32) (main_arg8 : FVec F S256 .f32) (main_arg9 : FVec F S256x256 .f32) (main_arg10 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S32x256x64x64 : Shape := ⟨4, ![32, 256, 64, 64]⟩
abbrev S32x256 : Shape := ⟨2, ![32, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S32x256x4096 : Shape := ⟨3, ![32, 256, 4096]⟩
abbrev S32x256x1 : Shape := ⟨3, ![32, 256, 1]⟩
abbrev S1x256x1 : Shape := ⟨3, ![1, 256, 1]⟩
abbrev S1x256x4096 : Shape := ⟨3, ![1, 256, 4096]⟩
abbrev S1x4096 : Shape := ⟨2, ![1, 4096]⟩
abbrev S1x1x4096 : Shape := ⟨3, ![1, 1, 4096]⟩

abbrev nBuf : Space → Nat
  | .hbm => 41
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S32x256, .f32⟩
  | .hbm, ⟨13, _⟩ => ⟨S1x256, .f32⟩
  | .hbm, ⟨14, _⟩ => ⟨S32x256, .f32⟩
  | .hbm, ⟨15, _⟩ => ⟨S32x256, .f32⟩
  | .hbm, ⟨16, _⟩ => ⟨S256x256, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S256x256, .f32⟩
  | .hbm, ⟨22, _⟩ => ⟨S32x256, .f32⟩
  | .hbm, ⟨23, _⟩ => ⟨S1x256, .f32⟩
  | .hbm, ⟨24, _⟩ => ⟨S32x256, .f32⟩
  | .hbm, ⟨25, _⟩ => ⟨S32x256, .f32⟩
  | .hbm, ⟨26, _⟩ => ⟨S32x256, .f32⟩
  | .hbm, ⟨27, _⟩ => ⟨S32x256, .f32⟩
  | .hbm, ⟨28, _⟩ => ⟨S_, .f32⟩
  | .hbm, ⟨29, _⟩ => ⟨S32x256, .f32⟩
  | .hbm, ⟨30, _⟩ => ⟨S32x256, .f32⟩
  | .hbm, ⟨31, _⟩ => ⟨S_, .f32⟩
  | .hbm, ⟨32, _⟩ => ⟨S32x256, .f32⟩
  | .hbm, ⟨33, _⟩ => ⟨S32x256, .f32⟩
  | .hbm, ⟨34, _⟩ => ⟨S32x256x4096, .f32⟩
  | .hbm, ⟨35, _⟩ => ⟨S32x256x1, .f32⟩
  | .hbm, ⟨36, _⟩ => ⟨S32x256x1, .f32⟩
  | .hbm, ⟨37, _⟩ => ⟨S1x256x1, .f32⟩
  | .hbm, ⟨38, _⟩ => ⟨S1x256x1, .f32⟩
  | .hbm, ⟨39, _⟩ => ⟨S32x256x4096, .f32⟩
  | .hbm, ⟨40, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S1x256x4096, .f32⟩
  | .local _ .vmem, ⟨9, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x256_S256x256_1_0 : S256x256.Transposes [1, 0] S256x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  shapeCasts_S32x256x64x64_S32x256x4096 : S32x256x64x64.ShapeCasts S32x256x4096
  shapeCasts_S32x256_S32x256x1 : S32x256.ShapeCasts S32x256x1
  shapeCasts_S256_S1x256x1 : S256.ShapeCasts S1x256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S1x256x4096 : S1x256x4096.ShapeCasts S1x256x4096
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x4096 : S1x256x1.Broadcasts S1x256x4096
  reduces_S1x256x4096_S1x4096 : S1x256x4096.Reduces [1] S1x4096
  shapeCasts_S1x4096_S1x1x4096 : S1x4096.ShapeCasts S1x1x4096
  broadcasts_S1x1x4096_S1x256x4096 : S1x1x4096.Broadcasts S1x256x4096
  shapeCasts_S32x256x4096_S32x256x64x64 : S32x256x4096.ShapeCasts S32x256x64x64
  dot_S32x256_S256x256_S32x256_1_0_0_1_n_n_wf : DotDims.WF S32x256 S256x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S32x256x1.size a
  hwx0_1 : ∀ i : grid0.Coords, EltTy.bits .f32 = 32 ∨ (Rect.block (s := S32x256x1) S1x256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S1x256x1.size a
  hwx0_2 : ∀ i : grid0.Coords, EltTy.bits .f32 = 32 ∨ (Rect.block (s := S1x256x1) S1x256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S1x256x1.size a
  hwx0_3 : ∀ i : grid0.Coords, EltTy.bits .f32 = 32 ∨ (Rect.block (s := S1x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S32x256x1.size a
  hwx0_4 : ∀ i : grid0.Coords, EltTy.bits .f32 = 32 ∨ (Rect.block (s := S32x256x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S32x256x4096.size a
  hwx0_5 : ∀ i : grid0.Coords, EltTy.bits .f32 = 32 ∨ (Rect.block (s := S32x256x4096) S1x256x4096.size (cc0_transform_5 i) (hinb0_5 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

abbrev win0_0 : Pipeline.Window sig grid0 :=
  Pipeline.Window.ofSpec (Memref.whole main_v21) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S256x256 : Shape := ⟨2, ![256, 256]⟩
abbrev S256 : Shape := ⟨1, ![256]⟩
abbrev S32x256x4096 : Shape := ⟨3, ![32, 256, 4096]⟩
abbrev S32x4096x256 : Shape := ⟨3, ![32, 4096, 256]⟩
abbrev S1x256 : Shape := ⟨2, ![1, 256]⟩
abbrev S32x1x256 : Shape := ⟨3, ![32, 1, 256]⟩
abbrev S_ : Shape := ⟨0, ![]⟩
abbrev S32x4096 : Shape := ⟨2, ![32, 4096]⟩
abbrev S32x4096x1 : Shape := ⟨3, ![32, 4096, 1]⟩
abbrev S1x1x256 : Shape := ⟨3, ![1, 1, 256]⟩

abbrev nBuf : Space → Nat
  | .hbm => 76
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S32x256x4096, .f32⟩
  | .hbm, ⟨12, _⟩ => ⟨S32x4096x256, .f32⟩
  | .hbm, ⟨13, _⟩ => ⟨S256x256, .f32⟩
  | .hbm, ⟨14, _⟩ => ⟨S32x256, .f32⟩
  | .hbm, ⟨15, _⟩ => ⟨S1x256, .f32⟩
  | .hbm, ⟨16, _⟩ => ⟨S32x256, .f32⟩
  | .hbm, ⟨17, _⟩ => ⟨S32x256, .f32⟩
  | .hbm, ⟨18, _⟩ => ⟨S256x256, .f32⟩
  | .hbm, ⟨19, _⟩ => ⟨S32x256, .f32⟩
  | .hbm, ⟨20, _⟩ => ⟨S1x256, .f32⟩
  | .hbm, ⟨21, _⟩ => ⟨S32x256, .f32⟩
  | .hbm, ⟨22, _⟩ => ⟨S32x256, .f32⟩
  | .hbm, ⟨23, _⟩ => ⟨S32x1x256, .f32⟩
  | .hbm, ⟨24, _⟩ => ⟨S32x4096x256, .f32⟩
  | .hbm, ⟨25, _⟩ => ⟨S32x4096x256, .f32⟩
  | .hbm, ⟨26, _⟩ => ⟨S_, .f32⟩
  | .hbm, ⟨27, _⟩ => ⟨S32x4096, .f32⟩
  | .hbm, ⟨28, _⟩ => ⟨S32x4096x1, .f32⟩
  | .hbm, ⟨29, _⟩ => ⟨S_, .f32⟩
  | .hbm, ⟨30, _⟩ => ⟨S32x4096x1, .f32⟩
  | .hbm, ⟨31, _⟩ => ⟨S32x4096x1, .f32⟩
  | .hbm, ⟨32, _⟩ => ⟨S32x4096x256, .f32⟩
  | .hbm, ⟨33, _⟩ => ⟨S32x4096x256, .f32⟩
  | .hbm, ⟨34, _⟩ => ⟨S32x4096x256, .f32⟩
  | .hbm, ⟨35, _⟩ => ⟨S_, .f32⟩
  | .hbm, ⟨36, _⟩ => ⟨S32x4096, .f32⟩
  | .hbm, ⟨37, _⟩ => ⟨S32x4096x1, .f32⟩
  | .hbm, ⟨38, _⟩ => ⟨S_, .f32⟩
  | .hbm, ⟨39, _⟩ => ⟨S32x4096x1, .f32⟩
  | .hbm, ⟨40, _⟩ => ⟨S32x4096x1, .f32⟩
  | .hbm, ⟨41, _⟩ => ⟨S32x4096x256, .f32⟩
  | .hbm, ⟨42, _⟩ => ⟨S32x4096x256, .f32⟩
  | .hbm, ⟨43, _⟩ => ⟨S_, .f32⟩
  | .hbm, ⟨44, _⟩ => ⟨S32x4096x1, .f32⟩
  | .hbm, ⟨45, _⟩ => ⟨S32x4096x1, .f32⟩
  | .hbm, ⟨46, _⟩ => ⟨S32x4096x1, .f32⟩
  | .hbm, ⟨47, _⟩ => ⟨S32x4096x256, .f32⟩
  | .hbm, ⟨48, _⟩ => ⟨S32x4096x256, .f32⟩
  | .hbm, ⟨49, _⟩ => ⟨S1x1x256, .f32⟩
  | .hbm, ⟨50, _⟩ => ⟨S32x4096x256, .f32⟩
  | .hbm, ⟨51, _⟩ => ⟨S32x4096x256, .f32⟩
  | .hbm, ⟨52, _⟩ => ⟨S1x1x256, .f32⟩
  | .hbm, ⟨53, _⟩ => ⟨S32x4096x256, .f32⟩
  | .hbm, ⟨54, _⟩ => ⟨S32x4096x256, .f32⟩
  | .hbm, ⟨55, _⟩ => ⟨S256x256, .f32⟩
  | .hbm, ⟨56, _⟩ => ⟨S32x256, .f32⟩
  | .hbm, ⟨57, _⟩ => ⟨S1x256, .f32⟩
  | .hbm, ⟨58, _⟩ => ⟨S32x256, .f32⟩
  | .hbm, ⟨59, _⟩ => ⟨S32x256, .f32⟩
  | .hbm, ⟨60, _⟩ => ⟨S32x256, .f32⟩
  | .hbm, ⟨61, _⟩ => ⟨S32x256, .f32⟩
  | .hbm, ⟨62, _⟩ => ⟨S_, .f32⟩
  | .hbm, ⟨63, _⟩ => ⟨S32x256, .f32⟩
  | .hbm, ⟨64, _⟩ => ⟨S32x256, .f32⟩
  | .hbm, ⟨65, _⟩ => ⟨S_, .f32⟩
  | .hbm, ⟨66, _⟩ => ⟨S32x256, .f32⟩
  | .hbm, ⟨67, _⟩ => ⟨S32x256, .f32⟩
  | .hbm, ⟨68, _⟩ => ⟨S32x1x256, .f32⟩
  | .hbm, ⟨69, _⟩ => ⟨S_, .f32⟩
  | .hbm, ⟨70, _⟩ => ⟨S32x1x256, .f32⟩
  | .hbm, ⟨71, _⟩ => ⟨S32x1x256, .f32⟩
  | .hbm, ⟨72, _⟩ => ⟨S32x4096x256, .f32⟩
  | .hbm, ⟨73, _⟩ => ⟨S32x4096x256, .f32⟩
  | .hbm, ⟨74, _⟩ => ⟨S32x256x4096, .f32⟩
  | .hbm, ⟨75, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  transposes_S32x256x4096_S32x4096x256_0_2_1 : S32x256x4096.Transposes [0, 2, 1] S32x4096x256
  transposes_S256x256_S256x256_1_0 : S256x256.Transposes [1, 0] S256x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x1x256_0_2 : S32x256.BroadcastsInDim S32x1x256 (![0, 2] : Fin 2 → Fin S32x1x256.rank)
  bcast_S32x1x256_S32x4096x256_0_1_2 : S32x1x256.BroadcastsInDim S32x4096x256 (![0, 1, 2] : Fin 3 → Fin S32x4096x256.rank)
  reducesTo_S32x4096x256_S32x4096_d2 : S32x4096x256.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x256_0_1_2 : S32x4096x1.BroadcastsInDim S32x4096x256 (![0, 1, 2] : Fin 3 → Fin S32x4096x256.rank)
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  bcast_S_S32x256 : S_.BroadcastsInDim S32x256 (![] : Fin 0 → Fin S32x256.rank)
  bcast_S_S32x1x256 : S_.BroadcastsInDim S32x1x256 (![] : Fin 0 → Fin S32x1x256.rank)
  transposes_S32x4096x256_S32x256x4096_0_2_1 : S32x4096x256.Transposes [0, 2, 1] S32x256x4096
  shapeCasts_S32x256x4096_S32x256x64x64 : S32x256x4096.ShapeCasts S32x256x64x64
  dot_S32x256_S256x256_S32x256_1_0_0_1_n_n_wf : DotDims.WF S32x256 S256x256 S32x256 [1] [0] [0] [1] [] []

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

class Facts : Prop extends Facts₀ where

variable [Facts]
-- ==== Proof.Spec.lean ====
/-
  What both programs compute, one token at a time.

  A token is the 256 channel values at one spatial position of one image, each with that image's attention
  value for the channel added. The token is normalised over its channels — the mean is the channel sum
  divided by 256, the variance the mean of the squared deviations, the scale the reciprocal square root of
  the variance plus a small constant — then scaled and shifted per channel and multiplied by one plus the
  channel's gate. Every operation is the exact one on the extended reals; the three float literals stay
  as their words, which are the same words in both programs.
-/
import Idealize.ShloMosaic.PureOps.Ideal
import Idealize.ShloMosaic.Lib.ValueIdx

noncomputable section

namespace Cert.GatedNorm

open Idealize.ShloMosaic Idealize.ShloMosaic.ValueIdx

/-- The number of channels, 256, as both programs spell it. -/
abbrev width : EReal := Ideal.ofBits .f32 0x43800000#32
/-- The constant added to the variance. -/
abbrev eps : EReal := Ideal.ofBits .f32 0x3727C5AC#32
/-- The constant one of the gate. -/
abbrev unit : EReal := Ideal.ofBits .f32 0x3F800000#32

/-- The mean over the channels: their sum divided by 256. -/
def mean (X : Fin 256 → EReal) : EReal := Ideal.div (∑ k : Fin 256, X k) width

/-- Channel `ch` of the normalised, scaled, shifted and gated token `X`. -/
def normTok (X g b gate : Fin 256 → EReal) (ch : Fin 256) : EReal :=
  ((X ch - mean X) * Ideal.rsqrt (mean (fun k => (X k - mean X) * (X k - mean X)) + eps) * g ch + b ch)
    * (unit + gate ch)

/-- The result over the layout [image, channel, position]: entry (b, ch, s) is channel `ch` of the token at
    position `s` of image `b`. -/
def tokens (x3 : (⟨3, ![32, 256, 4096]⟩ : Shape).Idx → EReal) (attn gate : (⟨2, ![32, 256]⟩ : Shape).Idx → EReal)
    (g bb : (⟨1, ![256]⟩ : Shape).Idx → EReal) (b : Fin 32) (ch : Fin 256) (s : Fin 4096) : EReal :=
  normTok (fun k => x3 (ix3 b k s) + attn (ix2 b k)) (fun k => g (ix1 k)) (fun k => bb (ix1 k))
    (fun k => gate (ix2 b k)) ch

/-- The same as an array. -/
def result3 (x3 : (⟨3, ![32, 256, 4096]⟩ : Shape).Idx → EReal) (attn gate : (⟨2, ![32, 256]⟩ : Shape).Idx → EReal)
    (g bb : (⟨1, ![256]⟩ : Shape).Idx → EReal) : (⟨3, ![32, 256, 4096]⟩ : Shape).Idx → EReal :=
  fun j => tokens x3 attn gate g bb (j 0) (j 1) (j 2)

theorem result3_ix (x3 : (⟨3, ![32, 256, 4096]⟩ : Shape).Idx → EReal) (attn gate : (⟨2, ![32, 256]⟩ : Shape).Idx → EReal)
    (g bb : (⟨1, ![256]⟩ : Shape).Idx → EReal) (b : Fin 32) (ch : Fin 256) (s : Fin 4096) :
    result3 x3 attn gate g bb (ix3 b ch s) = tokens x3 attn gate g bb b ch s := rfl

/-- The result in the arguments' own layout [image, channel, row, column]: the image's 64 × 64 positions are
    the 4096 positions in row-major order, on the way in and on the way out. -/
def result (x : (⟨4, ![32, 256, 64, 64]⟩ : Shape).Idx → EReal) (attn gate : (⟨2, ![32, 256]⟩ : Shape).Idx → EReal)
    (g bb : (⟨1, ![256]⟩ : Shape).Idx → EReal)
    (hin : (⟨4, ![32, 256, 64, 64]⟩ : Shape).ShapeCasts ⟨3, ![32, 256, 4096]⟩)
    (hout : (⟨3, ![32, 256, 4096]⟩ : Shape).ShapeCasts ⟨4, ![32, 256, 64, 64]⟩) :
    (⟨4, ![32, 256, 64, 64]⟩ : Shape).Idx → EReal :=
  shapeCast ⟨4, ![32, 256, 64, 64]⟩ (result3 (shapeCast ⟨3, ![32, 256, 4096]⟩ x hin) attn gate g bb) hout

end Cert.GatedNorm

end
-- ==== Proof.Body.lean ====
/-
  The kernel body's value at one entry of its block.

  The body works on one image: a block [1, 256, 4096] of channel rows by positions, with four columns
  [1, 256, 1] (the attention values, the scale, the shift and the gate). It is cut here into its stages —
  the column added along the positions, the mean over the channel axis of each position, the deviations, the
  reciprocal deviation — and each stage is read at an entry; put together, entry (0, p, q) of the block is
  channel `p` of the normalised token at position `q`.
-/
import proofs.«173593_j21775484191118_2_alg».proof.Proof.Gen.KernelIdeal.Skeleton
import proofs.«173593_j21775484191118_2_alg».proof.Proof.Spec
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.GatedNorm

/-! ## The layout operations of the block, read at an entry -/

section Layout
variable {α : Type}

/-- A column laid along the positions: entry (0, p, q) is the column's entry p. -/
theorem col_bcast (v : S1x256x1.Idx → α) (h : S1x256x1.Broadcasts S1x256x4096) (p : Fin 256) (q : Fin 4096) :
    broadcastTo S1x256x4096 v h (ix3 (0 : Fin 1) p q) = v (ix3 (0 : Fin 1) p (0 : Fin 1)) :=
  broadcastTo_apply v h _ _ (fun a => by
    match a with
    | ⟨0, _⟩ => rfl
    | ⟨1, _⟩ => rfl
    | ⟨2, _⟩ => rfl)

/-- A row laid along the channels: entry (0, p, q) is the row's entry q. -/
theorem row_bcast (v : S1x1x4096.Idx → α) (h : S1x1x4096.Broadcasts S1x256x4096) (p : Fin 256) (q : Fin 4096) :
    broadcastTo S1x256x4096 v h (ix3 (0 : Fin 1) p q) = v (ix3 (0 : Fin 1) (0 : Fin 1) q) :=
  broadcastTo_apply v h _ _ (fun a => by
    match a with
    | ⟨0, _⟩ => rfl
    | ⟨1, _⟩ => rfl
    | ⟨2, _⟩ => rfl)

/-- A row given a unit channel axis keeps its entries. -/
theorem unit_cast (v : S1x4096.Idx → α) (h : S1x4096.ShapeCasts S1x1x4096) (q : Fin 4096) :
    shapeCast S1x1x4096 v h (ix3 (0 : Fin 1) (0 : Fin 1) q) = v (ix2 (0 : Fin 1) q) :=
  shapeCast_apply v h _ _ (by
    rw [Shape.rowMajor_val_two, Shape.rowMajor_val_three]
    show 0 * 4096 + q.val = (0 * 1 + 0) * 4096 + q.val
    omega)

end Layout

/-- The sum over the channel axis at position q is the sum of the 256 entries of that position. -/
theorem chan_sum (src : FVec Ideal S1x256x4096 .f32) (h : S1x256x4096.Reduces [1] S1x4096) (hφ : FKind.Formats .f32)
    (hacc : (0x00000000#32 : BitVec 32) = FKind.add.neutral .f32 hφ) (q : Fin 4096) :
    multiReduction .add [1] S1x4096 src 0x00000000#32 h hφ hacc (ix2 (0 : Fin 1) q)
      = ∑ k : Fin 256, src (ix3 (0 : Fin 1) k q) :=
  (Ideal.multiReduction_add_single src 0x00000000#32 h hφ hacc (ix2 (0 : Fin 1) q)).trans
    (Finset.sum_congr rfl fun k _ => congrArg src (funext fun a => Fin.ext (by
      match a with
      | ⟨0, _⟩ => rfl
      | ⟨1, _⟩ => rfl
      | ⟨2, _⟩ => rfl)))

/-! ## The body's stages -/

/-- The block with the attention column added along the positions. -/
def withAttn (v0 : FVec Ideal S1x256x4096 .f32) (v2 : FVec Ideal S1x256x1 .f32) : FVec Ideal S1x256x4096 .f32 :=
  addf (shapeCast S1x256x4096 v0) (broadcastTo S1x256x4096 (shapeCast S1x256x1 v2))

/-- The mean over the channel axis, one value per position. -/
def laneMean (x : FVec Ideal S1x256x4096 .f32) : FVec Ideal S1x1x4096 .f32 :=
  divf (shapeCast S1x1x4096 (multiReduction .add [1] S1x4096 x 0x00000000#32 (by decide) (.inl rfl) rfl))
    (broadcast S1x1x4096 (Scalar.ofBits (F := Ideal) .f32 0x43800000#32))

/-- The deviations from the mean. -/
def centred (x : FVec Ideal S1x256x4096 .f32) : FVec Ideal S1x256x4096 .f32 :=
  subf x (broadcastTo S1x256x4096 (laneMean x))

/-- The reciprocal square root of the mean squared deviation plus the constant, one value per position. -/
def invDev (d : FVec Ideal S1x256x4096 .f32) : FVec Ideal S1x1x4096 .f32 :=
  rsqrt (addf (laneMean (mulf d d)) (broadcast S1x1x4096 (Scalar.ofBits (F := Ideal) .f32 0x3727C5AC#32)))

/-- The whole body from its five loads. -/
def body (v0 : FVec Ideal S1x256x4096 .f32) (v2 v20 v22 v30 : FVec Ideal S1x256x1 .f32) : FVec Ideal S1x256x4096 .f32 :=
  mulf (addf (mulf (mulf (centred (withAttn v0 v2)) (broadcastTo S1x256x4096 (invDev (centred (withAttn v0 v2)))))
        (broadcastTo S1x256x4096 (shapeCast S1x256x1 v20))) (broadcastTo S1x256x4096 (shapeCast S1x256x1 v22)))
    (broadcastTo S1x256x4096 (addf (broadcast S1x256x1 (Scalar.ofBits (F := Ideal) .f32 0x3F800000#32)) (shapeCast S1x256x1 v30)))

/-- The printed payload is these stages composed. -/
theorem pay_eq (v0 : Vec Ideal S1x256x4096 .f32) (v2 v20 v22 v30 : Vec Ideal S1x256x1 .f32) :
    k0_pay1 (F := Ideal) v0 v2 v20 v22 v30 = body v0 v2 v20 v22 v30 := rfl

/-! ## The stages at an entry -/

theorem withAttn_at (v0 : FVec Ideal S1x256x4096 .f32) (v2 : FVec Ideal S1x256x1 .f32) (p : Fin 256) (q : Fin 4096) :
    withAttn v0 v2 (ix3 (0 : Fin 1) p q) = v0 (ix3 (0 : Fin 1) p q) + v2 (ix3 (0 : Fin 1) p (0 : Fin 1)) := by
  show shapeCast S1x256x4096 v0 _ (ix3 (0 : Fin 1) p q) + broadcastTo S1x256x4096 (shapeCast S1x256x1 v2 _) _ (ix3 (0 : Fin 1) p q) = _
  rw [col_bcast, shapeCast_self, shapeCast_self]

theorem laneMean_at (x : FVec Ideal S1x256x4096 .f32) (q : Fin 4096) :
    laneMean x (ix3 (0 : Fin 1) (0 : Fin 1) q) = mean (fun k => x (ix3 (0 : Fin 1) k q)) :=
  congrArg (fun z => Ideal.div z width) ((unit_cast _ _ q).trans (chan_sum x _ _ _ q))

theorem centred_at (x : FVec Ideal S1x256x4096 .f32) (p : Fin 256) (q : Fin 4096) :
    centred x (ix3 (0 : Fin 1) p q) = x (ix3 (0 : Fin 1) p q) - mean (fun k => x (ix3 (0 : Fin 1) k q)) := by
  show x (ix3 (0 : Fin 1) p q) - broadcastTo S1x256x4096 (laneMean x) _ (ix3 (0 : Fin 1) p q) = _
  rw [row_bcast, laneMean_at]

theorem invDev_at (d : FVec Ideal S1x256x4096 .f32) (q : Fin 4096) :
    invDev d (ix3 (0 : Fin 1) (0 : Fin 1) q)
      = Ideal.rsqrt (mean (fun k => d (ix3 (0 : Fin 1) k q) * d (ix3 (0 : Fin 1) k q)) + eps) := by
  show Ideal.rsqrt (laneMean (mulf d d) (ix3 (0 : Fin 1) (0 : Fin 1) q) + eps) = _
  rw [laneMean_at]
  rfl

theorem col_at (v : FVec Ideal S1x256x1 .f32) (h : S1x256x1.ShapeCasts S1x256x1) (hb : S1x256x1.Broadcasts S1x256x4096)
    (p : Fin 256) (q : Fin 4096) :
    broadcastTo S1x256x4096 (shapeCast S1x256x1 v h) hb (ix3 (0 : Fin 1) p q) = v (ix3 (0 : Fin 1) p (0 : Fin 1)) := by
  rw [col_bcast, shapeCast_self]

/-- Entry (0, p, q) of what the body stores is channel p of the normalised token at position q: the token is the
    block's column q with the attention column added, the scale, shift and gate the other three columns. -/
theorem pay_at (v0 : Vec Ideal S1x256x4096 .f32) (v2 v20 v22 v30 : Vec Ideal S1x256x1 .f32) (p : Fin 256) (q : Fin 4096) :
    k0_pay1 (F := Ideal) v0 v2 v20 v22 v30 (ix3 (0 : Fin 1) p q)
      = normTok (fun k => v0 (ix3 (0 : Fin 1) k q) + v2 (ix3 (0 : Fin 1) k (0 : Fin 1)))
          (fun k => v20 (ix3 (0 : Fin 1) k (0 : Fin 1))) (fun k => v22 (ix3 (0 : Fin 1) k (0 : Fin 1)))
          (fun k => v30 (ix3 (0 : Fin 1) k (0 : Fin 1))) p := by
  rw [pay_eq]
  show ((centred (withAttn v0 v2) (ix3 (0 : Fin 1) p q)
          * broadcastTo S1x256x4096 (invDev (centred (withAttn v0 v2))) _ (ix3 (0 : Fin 1) p q))
        * broadcastTo S1x256x4096 (shapeCast S1x256x1 v20 _) _ (ix3 (0 : Fin 1) p q)
      + broadcastTo S1x256x4096 (shapeCast S1x256x1 v22 _) _ (ix3 (0 : Fin 1) p q))
      * broadcastTo S1x256x4096 (addf (broadcast S1x256x1 (Scalar.ofBits (F := Ideal) .f32 0x3F800000#32)) (shapeCast S1x256x1 v30 _)) _
          (ix3 (0 : Fin 1) p q) = _
  rw [row_bcast, invDev_at, col_at, col_at, col_bcast, shapeCast_self]
  simp only [centred_at, withAttn_at]
  unfold normTok
  rfl

/-- An entry of the block has unit first coordinate. -/
theorem eq_ix3_unit (j : S1x256x4096.Idx) : j = ix3 (0 : Fin 1) (j 1 : Fin 256) (j 2 : Fin 4096) := by
  funext a
  match a with
  | ⟨0, _⟩ => exact Fin.ext (by have h : (j 0).val < 1 := (j 0).isLt; show (j 0).val = 0; omega)
  | ⟨1, _⟩ => rfl
  | ⟨2, _⟩ => rfl

/-- The body at the point of image b: if its five loads are image b's rows of the arrays — the positions' block, the
    attention and gate columns of image b, the scale and shift columns — then entry (0, p, q) of what it stores is
    entry (b, p, q) of the result. -/
theorem point_eq (X3 : S32x256x4096.Idx → EReal) (attn gate : S32x256.Idx → EReal) (g bb : S256.Idx → EReal) (b : Fin 32)
    (v0 : Vec Ideal S1x256x4096 .f32) (v1 v2 v3 v4 : Vec Ideal S1x256x1 .f32)
    (h0 : ∀ (p : Fin 256) (q : Fin 4096), v0 (ix3 (0 : Fin 1) p q) = X3 (ix3 b p q))
    (h1 : ∀ p : Fin 256, v1 (ix3 (0 : Fin 1) p (0 : Fin 1)) = attn (ix2 b p))
    (h2 : ∀ p : Fin 256, v2 (ix3 (0 : Fin 1) p (0 : Fin 1)) = g (ix1 p))
    (h3 : ∀ p : Fin 256, v3 (ix3 (0 : Fin 1) p (0 : Fin 1)) = bb (ix1 p))
    (h4 : ∀ p : Fin 256, v4 (ix3 (0 : Fin 1) p (0 : Fin 1)) = gate (ix2 b p))
    (p : Fin 256) (q : Fin 4096) :
    k0_pay1 (F := Ideal) v0 v1 v2 v3 v4 (ix3 (0 : Fin 1) p q) = result3 X3 attn gate g bb (ix3 b p q) := by
  rw [pay_at, result3_ix]
  unfold tokens
  simp only [h0, h1, h2, h3, h4]

end Cert.KernelIdeal.Body

end
-- ==== Proof.KernelValue.lean ====
/-
  The kernel's result array, as one function of the arguments.

  The grid has one point per image. At point t the body sees image t's [256, 4096] block, image t's attention and
  gate columns, and the scale and shift columns (the same at every point), and writes image t's block of the output.
  So every output entry is written exactly once, by its image's point, with the normalised token's channel; the
  blocks tile the output. Before the region the host lines compute the attention and gate values and re-lay the
  arguments; after it one line re-lays the output as [image, channel, row, column].
-/
import proofs.«173593_j21775484191118_2_alg».proof.Proof.Gen.KernelIdeal.Frame
import proofs.«173593_j21775484191118_2_alg».proof.Proof.Body
import Idealize.ShloMosaic.Lib.Pipeline.Value
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.KernelIdeal.Body Cert.GatedNorm

/-! ## The host lines before the region -/

/-- The attention values [image, channel]: the text row through the two projections, each a product with the
    transposed weight plus the bias row. -/
def attnK (x1 : FVec Ideal S32x256 .f32) (x3 : FVec Ideal S256x256 .f32) (x4 : FVec Ideal S256 .f32)
    (x5 : FVec Ideal S256x256 .f32) (x6 : FVec Ideal S256 .f32) : FVec Ideal S32x256 .f32 :=
  addf
    (Host.dotGeneral dot_S32x256_S256x256_S32x256_1_0_0_1_n_n none
      (addf
        (Host.dotGeneral dot_S32x256_S256x256_S32x256_1_0_0_1_n_n none x1
          (transpose S256x256 [1, 0] x3 transposes_S256x256_S256x256_1_0))
        (broadcastInDim S32x256 ![0, 1] bcast_S1x256_S32x256_0_1 (broadcastInDim S1x256 ![1] bcast_S256_S1x256_1 x4)))
      (transpose S256x256 [1, 0] x5 transposes_S256x256_S256x256_1_0))
    (broadcastInDim S32x256 ![0, 1] bcast_S1x256_S32x256_0_1 (broadcastInDim S1x256 ![1] bcast_S256_S1x256_1 x6))

/-- The gate values [image, channel]: the logistic function, one over one plus the exponential of the negated
    projection of the metrics row. -/
def gateK (x2 : FVec Ideal S32x256 .f32) (x9 : FVec Ideal S256x256 .f32) (x10 : FVec Ideal S256 .f32) :
    FVec Ideal S32x256 .f32 :=
  Host.divf (broadcastInDim S32x256 ![] bcast_S_S32x256 (constant (F := Ideal) S_ .f32 0x3F800000#32))
    (addf (broadcastInDim S32x256 ![] bcast_S_S32x256 (constant (F := Ideal) S_ .f32 0x3F800000#32))
      (Host.exp (Host.negf
        (addf
          (Host.dotGeneral dot_S32x256_S256x256_S32x256_1_0_0_1_n_n none x2
            (transpose S256x256 [1, 0] x9 transposes_S256x256_S256x256_1_0))
          (broadcastInDim S32x256 ![0, 1] bcast_S1x256_S32x256_0_1 (broadcastInDim S1x256 ![1] bcast_S256_S1x256_1 x10))))))

variable (m : (ℓ : Loc nD τ sig) → Buf (Elt Ideal) ℓ) (ρ : Dev nD → PrngReg)

/-- The attention values of the launch memory. -/
abbrev attnOf (c : Dev nD) : S32x256.Idx → EReal :=
  attnK (m ((c : Thread nD τ).loc main_arg1)) (m ((c : Thread nD τ).loc main_arg3)) (m ((c : Thread nD τ).loc main_arg4))
    (m ((c : Thread nD τ).loc main_arg5)) (m ((c : Thread nD τ).loc main_arg6))
/-- The gate values of the launch memory. -/
abbrev gateOf (c : Dev nD) : S32x256.Idx → EReal :=
  gateK (m ((c : Thread nD τ).loc main_arg2)) (m ((c : Thread nD τ).loc main_arg9)) (m ((c : Thread nD τ).loc main_arg10))

/-- The region finds the first argument re-laid as [image, channel, position]. -/
theorem V21_eq (c : Dev nD) : (V m c main_v21 : S32x256x4096.Idx → EReal)
    = shapeCast S32x256x4096 (m ((c : Thread nD τ).loc main_arg0)) shapeCasts_S32x256x64x64_S32x256x4096 := by
  show StableHlo.after hostOps0 (fun b => m (c, b)) (Proc.devRef .tc main_v21) = _
  after_results_simp
  rfl

/-- The attention values as a column per image. -/
theorem V22_eq (c : Dev nD) : (V m c main_v22 : S32x256x1.Idx → EReal)
    = shapeCast S32x256x1 (attnOf m c) shapeCasts_S32x256_S32x256x1 := by
  show StableHlo.after hostOps0 (fun b => m (c, b)) (Proc.devRef .tc main_v22) = _
  after_results_simp
  rfl

/-- The gate values as a column per image. -/
theorem V23_eq (c : Dev nD) : (V m c main_v23 : S32x256x1.Idx → EReal)
    = shapeCast S32x256x1 (gateOf m c) shapeCasts_S32x256_S32x256x1 := by
  show StableHlo.after hostOps0 (fun b => m (c, b)) (Proc.devRef .tc main_v23) = _
  after_results_simp
  rfl

/-- The scale as a column. -/
theorem V24_eq (c : Dev nD) : (V m c main_v24 : S1x256x1.Idx → EReal)
    = shapeCast S1x256x1 (m ((c : Thread nD τ).loc main_arg7)) shapeCasts_S256_S1x256x1 := by
  show StableHlo.after hostOps0 (fun b => m (c, b)) (Proc.devRef .tc main_v24) = _
  after_results_simp
  rfl

/-- The shift as a column. -/
theorem V25_eq (c : Dev nD) : (V m c main_v25 : S1x256x1.Idx → EReal)
    = shapeCast S1x256x1 (m ((c : Thread nD τ).loc main_arg8)) shapeCasts_S256_S1x256x1 := by
  show StableHlo.after hostOps0 (fun b => m (c, b)) (Proc.devRef .tc main_v25) = _
  after_results_simp
  rfl

/-! ## Columns read at an entry -/

section Casts
variable {α : Type}

theorem col3_cast (a : S32x256.Idx → α) (h : S32x256.ShapeCasts S32x256x1) (b : Fin 32) (p : Fin 256) :
    shapeCast S32x256x1 a h (ix3 b p (0 : Fin 1)) = a (ix2 b p) :=
  shapeCast_apply a h _ _ (by
    rw [Shape.rowMajor_val_two, Shape.rowMajor_val_three]
    show b.val * 256 + p.val = (b.val * 256 + p.val) * 1 + 0
    omega)

theorem vec3_cast (a : S256.Idx → α) (h : S256.ShapeCasts S1x256x1) (p : Fin 256) :
    shapeCast S1x256x1 a h (ix3 (0 : Fin 1) p (0 : Fin 1)) = a (ix1 p) :=
  shapeCast_apply a h _ _ (by
    rw [Shape.rowMajor_val_one, Shape.rowMajor_val_three]
    show p.val = (0 * 256 + p.val) * 1 + 0
    omega)

end Casts

/-! ## The blocks -/

theorem hz : (![0, 0, 0] : Fin 3 → Nat) = fun _ => 0 := funext fun a => by fin_cases a <;> rfl

/-- The image of a grid point. -/
def img (t : Fin cfg0.N) : Fin 32 := ⟨t.val, by have := t.isLt; have h : cfg0.N = 32 := N_0; omega⟩

/-- The printed index maps over the grid: the image's windows sit at block (t, 0, 0), the scale and shift at (0, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- Image t's block of the re-laid first argument. -/
theorem blk0_at (c : Dev nD) (t : Fin cfg0.N) (p : Fin 256) (q : Fin 4096) :
    (iblk m c 0 t : Vec Ideal S1x256x4096 .f32) (ix3 (0 : Fin 1) p q)
      = (V m c main_v21 : S32x256x4096.Idx → EReal) (ix3 (img t) p q) := by
  obtain ⟨⟨e0, e1, e2⟩, -⟩ := idx_facts t
  unfold iblk
  rw [View.read_apply]
  show V m c main_v21 _ = V m c main_v21 _
  congr 1
  funext a
  apply Fin.ext
  match a with
  | ⟨0, _⟩ => show win0_0.index t 0 * 1 + 1 * (0 : Nat) = t.val; rw [e0]; omega
  | ⟨1, _⟩ => show win0_0.index t 1 * 256 + 1 * p.val = p.val; rw [e1]; omega
  | ⟨2, _⟩ => show win0_0.index t 2 * 4096 + 1 * q.val = q.val; rw [e2]; omega

/-- Image t's attention column. -/
theorem blk1_at (c : Dev nD) (t : Fin cfg0.N) (p : Fin 256) :
    (iblk m c 1 t : Vec Ideal S1x256x1 .f32) (ix3 (0 : Fin 1) p (0 : Fin 1)) = attnOf m c (ix2 (img t) p) := by
  obtain ⟨-, ⟨e0, e1, e2⟩, -⟩ := idx_facts t
  have h : (iblk m c 1 t : Vec Ideal S1x256x1 .f32) (ix3 (0 : Fin 1) p (0 : Fin 1))
      = (V m c main_v22 : S32x256x1.Idx → EReal) (ix3 (img t) p (0 : Fin 1)) := by
    unfold iblk
    rw [View.read_apply]
    show V m c main_v22 _ = V m c main_v22 _
    congr 1
    funext a
    apply Fin.ext
    match a with
    | ⟨0, _⟩ => show win0_1.index t 0 * 1 + 1 * (0 : Nat) = t.val; rw [e0]; omega
    | ⟨1, _⟩ => show win0_1.index t 1 * 256 + 1 * p.val = p.val; rw [e1]; omega
    | ⟨2, _⟩ => show win0_1.index t 2 * 1 + 1 * (0 : Nat) = 0; rw [e2]
  rw [h, V22_eq, col3_cast]

/-- The scale column. -/
theorem blk2_at (c : Dev nD) (t : Fin cfg0.N) (p : Fin 256) :
    (iblk m c 2 t : Vec Ideal S1x256x1 .f32) (ix3 (0 : Fin 1) p (0 : Fin 1))
      = (m ((c : Thread nD τ).loc main_arg7) : S256.Idx → EReal) (ix1 p) := by
  obtain ⟨-, -, ⟨e0, e1, e2⟩, -⟩ := idx_facts t
  have h : (iblk m c 2 t : Vec Ideal S1x256x1 .f32) (ix3 (0 : Fin 1) p (0 : Fin 1))
      = (V m c main_v24 : S1x256x1.Idx → EReal) (ix3 (0 : Fin 1) p (0 : Fin 1)) := by
    unfold iblk
    rw [View.read_apply]
    show V m c main_v24 _ = V m c main_v24 _
    congr 1
    funext a
    apply Fin.ext
    match a with
    | ⟨0, _⟩ => show win0_2.index t 0 * 1 + 1 * (0 : Nat) = 0; rw [e0]
    | ⟨1, _⟩ => show win0_2.index t 1 * 256 + 1 * p.val = p.val; rw [e1]; omega
    | ⟨2, _⟩ => show win0_2.index t 2 * 1 + 1 * (0 : Nat) = 0; rw [e2]
  rw [h, V24_eq, vec3_cast]

/-- The shift column. -/
theorem blk3_at (c : Dev nD) (t : Fin cfg0.N) (p : Fin 256) :
    (iblk m c 3 t : Vec Ideal S1x256x1 .f32) (ix3 (0 : Fin 1) p (0 : Fin 1))
      = (m ((c : Thread nD τ).loc main_arg8) : S256.Idx → EReal) (ix1 p) := by
  obtain ⟨-, -, -, ⟨e0, e1, e2⟩, -⟩ := idx_facts t
  have h : (iblk m c 3 t : Vec Ideal S1x256x1 .f32) (ix3 (0 : Fin 1) p (0 : Fin 1))
      = (V m c main_v25 : S1x256x1.Idx → EReal) (ix3 (0 : Fin 1) p (0 : Fin 1)) := by
    unfold iblk
    rw [View.read_apply]
    show V m c main_v25 _ = V m c main_v25 _
    congr 1
    funext a
    apply Fin.ext
    match a with
    | ⟨0, _⟩ => show win0_3.index t 0 * 1 + 1 * (0 : Nat) = 0; rw [e0]
    | ⟨1, _⟩ => show win0_3.index t 1 * 256 + 1 * p.val = p.val; rw [e1]; omega
    | ⟨2, _⟩ => show win0_3.index t 2 * 1 + 1 * (0 : Nat) = 0; rw [e2]
  rw [h, V25_eq, vec3_cast]

/-- Image t's gate column. -/
theorem blk4_at (c : Dev nD) (t : Fin cfg0.N) (p : Fin 256) :
    (iblk m c 4 t : Vec Ideal S1x256x1 .f32) (ix3 (0 : Fin 1) p (0 : Fin 1)) = gateOf m c (ix2 (img t) p) := by
  obtain ⟨-, -, -, -, ⟨e0, e1, e2⟩, -⟩ := idx_facts t
  have h : (iblk m c 4 t : Vec Ideal S1x256x1 .f32) (ix3 (0 : Fin 1) p (0 : Fin 1))
      = (V m c main_v23 : S32x256x1.Idx → EReal) (ix3 (img t) p (0 : Fin 1)) := by
    unfold iblk
    rw [View.read_apply]
    show V m c main_v23 _ = V m c main_v23 _
    congr 1
    funext a
    apply Fin.ext
    match a with
    | ⟨0, _⟩ => show win0_4.index t 0 * 1 + 1 * (0 : Nat) = t.val; rw [e0]; omega
    | ⟨1, _⟩ => show win0_4.index t 1 * 256 + 1 * p.val = p.val; rw [e1]; omega
    | ⟨2, _⟩ => show win0_4.index t 2 * 1 + 1 * (0 : Nat) = 0; rw [e2]
  rw [h, V23_eq, col3_cast]

/-! ## The output array -/

/-- What the output array holds after the region, over [image, channel, position]. -/
abbrev out3 (c : Dev nD) : S32x256x4096.Idx → EReal :=
  result3 (V m c main_v21) (attnOf m c) (gateOf m c) (m ((c : Thread nD τ).loc main_arg7)) (m ((c : Thread nD τ).loc main_arg8))

/-- What point t writes back is image t's block of the result. -/
theorem flushed_eq (c : Dev nD) (t : Fin cfg0.N) :
    (dats m 0 c).flushed 5 t = ((cfg0.win 5).blk t).view.read (Elt Ideal) (out3 m c) := by
  show (cfg0.win 5).cut (grid0.coords t) ((dats m 0 c).after 5 t) = _
  rw [after0_5]
  unfold out0_5
  rw [View.canon_unit_zero hz]
  simp only [View.ld_unit_zero (S := S1x256x4096) hz, View.ld_unit_zero (S := S1x256x1) hz]
  obtain ⟨-, -, -, -, -, ⟨e0, e1, e2⟩⟩ := idx_facts t
  funext j
  obtain ⟨p, q, rfl⟩ : ∃ (p : Fin 256) (q : Fin 4096), j = ix3 (0 : Fin 1) p q := ⟨j 1, j 2, eq_ix3_unit j⟩
  show k0_pay1 (F := Ideal) (iblk m c 0 t) (iblk m c 1 t) (iblk m c 2 t) (iblk m c 3 t) (iblk m c 4 t) (ix3 (0 : Fin 1) p q)
    = out3 m c (((cfg0.win 5).blk t).view.emb (ix3 (0 : Fin 1) p q))
  have hemb : ((cfg0.win 5).blk t).view.emb (ix3 (0 : Fin 1) p q) = ix3 (img t) p q := by
    funext a
    apply Fin.ext
    match a with
    | ⟨0, _⟩ => show win0_5.index t 0 * 1 + 1 * (0 : Nat) = t.val; rw [e0]; omega
    | ⟨1, _⟩ => show win0_5.index t 1 * 256 + 1 * p.val = p.val; rw [e1]; omega
    | ⟨2, _⟩ => show win0_5.index t 2 * 4096 + 1 * q.val = q.val; rw [e2]; omega
  rw [hemb]
  exact point_eq (V m c main_v21) (attnOf m c) (gateOf m c) (m ((c : Thread nD τ).loc main_arg7))
    (m ((c : Thread nD τ).loc main_arg8)) (img t) (iblk m c 0 t) (iblk m c 1 t) (iblk m c 2 t) (iblk m c 3 t) (iblk m c 4 t)
    (fun p q => blk0_at m c t p q) (fun p => blk1_at m c t p) (fun p => blk2_at m c t p) (fun p => blk3_at m c t p)
    (fun p => blk4_at m c t p) p q

/-- An index of the output is in point t's block iff each coordinate is in the block's range. -/
theorem mem_blk (t : Fin cfg0.N) (i : S32x256x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v26).slice (win0_5.rect t)).set ↔ _
  rw [View.set_slice_whole, Rect.mem_set_unit]
  exact Iff.rfl

/-- The output array after the region: the images' blocks tile it. -/
theorem final5 (c : Dev nD) : (dats m 0 c).arrAt 5 cfg0.N = out3 m c :=
  (dats m 0 c).arrAt_eq_of_cover 5 (out3 m c) (fun t _ => flushed_eq m c t) fun i => by
    have hi0 : (i 0).val < 32 := (i 0).isLt
    have hi1 : (i 1).val < 256 := (i 1).isLt
    have hi2 : (i 2).val < 4096 := (i 2).isLt
    have hN : cfg0.N = 32 := N_0
    refine ⟨⟨(i 0).val, by omega⟩, flush0_5 _, ?_⟩
    obtain ⟨-, -, -, -, -, ⟨e0, e1, e2⟩⟩ := idx_facts ⟨(i 0).val, by omega⟩
    rw [mem_blk]
    intro a
    match a with
    | ⟨0, _⟩ =>
      show win0_5.index ⟨(i 0).val, _⟩ 0 * 1 ≤ (i 0).val ∧ (i 0).val < win0_5.index ⟨(i 0).val, _⟩ 0 * 1 + 1
      rw [e0]
      show (i 0).val * 1 ≤ (i 0).val ∧ (i 0).val < (i 0).val * 1 + 1
      omega
    | ⟨1, _⟩ =>
      show win0_5.index ⟨(i 0).val, _⟩ 1 * 256 ≤ (i 1).val ∧ (i 1).val < win0_5.index ⟨(i 0).val, _⟩ 1 * 256 + 256
      rw [e1]; omega
    | ⟨2, _⟩ =>
      show win0_5.index ⟨(i 0).val, _⟩ 2 * 4096 ≤ (i 2).val ∧ (i 2).val < win0_5.index ⟨(i 0).val, _⟩ 2 * 4096 + 4096
      rw [e2]; omega

/-! ## The line after the region, and the run -/

/-- The kernel's result as one function of the launch memory. -/
abbrev resultOf (c : Dev nD) : S32x256x64x64.Idx → EReal :=
  result (m ((c : Thread nD τ).loc main_arg0)) (attnOf m c) (gateOf m c) (m ((c : Thread nD τ).loc main_arg7))
    (m ((c : Thread nD τ).loc main_arg8)) shapeCasts_S32x256x64x64_S32x256x4096 shapeCasts_S32x256x4096_S32x256x64x64

/-- The last line re-lays the output array. -/
theorem tail_eq (c : Dev nD) :
    Pipeline.afterTail₀ cfgs (dats m) 0 (V0 m) [hostOps1] c main_v27 = resultOf m c := by
  unfold Pipeline.afterTail₀
  show StableHlo.after hostOps1 _ (Proc.devRef .tc main_v27) = _
  after_results
  have harr : Pipeline.withArrays (cfgs 0).spec c (V0 m c) (fun w => (dats m 0 c).arrAt w (cfgs 0).N) (Proc.devRef .tc main_v26)
      = out3 m c :=
    (Pipeline.withArrays_arr spec0 launch0.win.arr_inj c _ _ 5).trans (final5 m c)
  rw [harr]
  unfold resultOf result out3
  rw [V21_eq]
  rfl

/-- The run, read: the result buffer at the function of the arguments, the arguments unchanged. -/
theorem run : θ_run defs (onTc (τ := τ) (main (F := Ideal))) ⟨m, fun _ => 0, ρ⟩ fun r => ∀ c : Dev nD,
      r.2.mem ((c.tc : Thread nD τ).loc main_v27) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v27 (Pipeline.mem_restRefs_of main_v27 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KValue

end
-- ==== Proof.RefValue.lean ====
/-
  The reference's result is the function of Spec.lean.

  The reference lays every image out as [position, channel], adds the attention row to every position, takes
  the mean and the variance along the channel axis, and applies scale, shift and gate as rows; at the end it
  goes back to [channel, position]. Read one operation at a time at an entry (b, s, ch), each stage is the
  corresponding piece of the normalised token at position s of image b. The two small matrix products and the
  logistic gate are not opened: they enter only through their values at (b, ch).
-/
import proofs.«173593_j21775484191118_2_alg».proof.Proof.Gen.ReferenceIdeal.Read
import proofs.«173593_j21775484191118_2_alg».proof.Proof.Spec

noncomputable section

namespace Cert.ReferenceIdeal.RefValue

open Idealize.ShloMosaic Idealize.ShloMosaic.ValueIdx Idealize.ShloMosaic.TcCoe
open Cert.ReferenceIdeal Cert.ReferenceIdeal.Gen Cert.ReferenceIdeal.Read Cert.GatedNorm

/-- Two indices with the same coordinates are equal (one, two or three axes). -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

variable (x0 : (⟨S32x256x64x64, .f32⟩ : BufTy).Contents (Elt Ideal))
  (x1 x2 : (⟨S32x256, .f32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 x7 x8 : (⟨S256, .f32⟩ : BufTy).Contents (Elt Ideal))
  (x9 : (⟨S256x256, .f32⟩ : BufTy).Contents (Elt Ideal)) (x10 : (⟨S256, .f32⟩ : BufTy).Contents (Elt Ideal))

/-- The token at position s of image b: the image's channel values there, each with the attention value added. -/
abbrev tok (b : Fin 32) (s : Fin 4096) : Fin 256 → EReal := fun k =>
  val_main_v0 (F := Ideal) x0 (ix3 b k s) + val_main_v11 (F := Ideal) x1 x3 x4 x5 x6 (ix2 b k)

/-- The sum of the tokens' layout and the attention row, at (b, s, k), is the token's channel k. -/
theorem tok_at (b : Fin 32) (s : Fin 4096) (k : Fin 256) :
    val_main_v14 (F := Ideal) x0 x1 x3 x4 x5 x6 (ix3 b s k) = tok x0 x1 x3 x4 x5 x6 b s k := by
  rw [val_main_v14_apply, val_main_v1_apply, val_main_v13_apply, val_main_v12_apply]
  exact congrArg₂ (fun y z : EReal => y + z) (congrArg _ (by idx3)) (congrArg _ (by idx2))

/-- The mean along the channel axis at position s of image b. -/
theorem mean_at (b : Fin 32) (s : Fin 4096) :
    val_main_v18 (F := Ideal) x0 x1 x3 x4 x5 x6 (ix3 b s (0 : Fin 1)) = mean (tok x0 x1 x3 x4 x5 x6 b s) := by
  rw [val_main_v18_apply, val_main_v16_apply, val_main_v17_apply, val_main_cst_0_apply, val_main_v15_apply,
    val_main_cst_apply]
  show Ideal.div (Ideal.ofBits .f32 0x00000000#32 + _) width = _
  rw [Ideal.ofBits_zero_f32, zero_add]
  exact congrArg (fun z => Ideal.div z width) (Finset.sum_congr rfl fun k _ =>
    (congrArg _ (by idx3)).trans (tok_at x0 x1 x3 x4 x5 x6 b s k))

/-- The deviation of channel k from the mean. -/
theorem dev_at (b : Fin 32) (s : Fin 4096) (k : Fin 256) :
    val_main_v20 (F := Ideal) x0 x1 x3 x4 x5 x6 (ix3 b s k)
      = tok x0 x1 x3 x4 x5 x6 b s k - mean (tok x0 x1 x3 x4 x5 x6 b s) := by
  rw [val_main_v20_apply, val_main_v19_apply, tok_at]
  exact congrArg (fun z : EReal => tok x0 x1 x3 x4 x5 x6 b s k - z)
    ((congrArg _ (by idx3)).trans (mean_at x0 x1 x3 x4 x5 x6 b s))

/-- The same deviation, computed a second time for the product with the scale. -/
theorem dev2_at (b : Fin 32) (s : Fin 4096) (k : Fin 256) :
    val_main_v27 (F := Ideal) x0 x1 x3 x4 x5 x6 (ix3 b s k)
      = tok x0 x1 x3 x4 x5 x6 b s k - mean (tok x0 x1 x3 x4 x5 x6 b s) := by
  rw [val_main_v27_apply, val_main_v26_apply, tok_at]
  exact congrArg (fun z : EReal => tok x0 x1 x3 x4 x5 x6 b s k - z)
    ((congrArg _ (by idx3)).trans (mean_at x0 x1 x3 x4 x5 x6 b s))

/-- The variance: the mean of the squared deviations. -/
theorem var_at (b : Fin 32) (s : Fin 4096) :
    val_main_v25 (F := Ideal) x0 x1 x3 x4 x5 x6 (ix3 b s (0 : Fin 1))
      = mean (fun k => (tok x0 x1 x3 x4 x5 x6 b s k - mean (tok x0 x1 x3 x4 x5 x6 b s))
          * (tok x0 x1 x3 x4 x5 x6 b s k - mean (tok x0 x1 x3 x4 x5 x6 b s))) := by
  rw [val_main_v25_apply, val_main_v23_apply, val_main_v24_apply, val_main_cst_2_apply, val_main_v22_apply,
    val_main_cst_1_apply]
  show Ideal.div (Ideal.ofBits .f32 0x00000000#32 + _) width = _
  rw [Ideal.ofBits_zero_f32, zero_add]
  refine congrArg (fun z => Ideal.div z width) (Finset.sum_congr rfl fun k _ => ?_)
  rw [val_main_v21_apply]
  have e : val_main_v20 (F := Ideal) x0 x1 x3 x4 x5 x6 (idx_main_v22 (idx_main_v23 (ix3 b s (0 : Fin 1))) k)
      = tok x0 x1 x3 x4 x5 x6 b s k - mean (tok x0 x1 x3 x4 x5 x6 b s) :=
    (congrArg _ (by idx3)).trans (dev_at x0 x1 x3 x4 x5 x6 b s k)
  rw [e]
  rfl

/-- The scale: the reciprocal square root of the variance plus the constant. -/
theorem inv_at (b : Fin 32) (s : Fin 4096) :
    val_main_v30 (F := Ideal) x0 x1 x3 x4 x5 x6 (ix3 b s (0 : Fin 1))
      = Ideal.rsqrt (mean (fun k => (tok x0 x1 x3 x4 x5 x6 b s k - mean (tok x0 x1 x3 x4 x5 x6 b s))
          * (tok x0 x1 x3 x4 x5 x6 b s k - mean (tok x0 x1 x3 x4 x5 x6 b s))) + eps) := by
  rw [val_main_v30_apply, val_main_v29_apply, val_main_v28_apply, val_main_cst_3_apply, var_at]
  rfl

/-- Normalised, scaled by the channel's weight and shifted by its bias. -/
theorem affine_at (b : Fin 32) (s : Fin 4096) (ch : Fin 256) :
    val_main_v38 (F := Ideal) x0 x1 x3 x4 x5 x6 x7 x8 (ix3 b s ch)
      = (tok x0 x1 x3 x4 x5 x6 b s ch - mean (tok x0 x1 x3 x4 x5 x6 b s))
          * Ideal.rsqrt (mean (fun k => (tok x0 x1 x3 x4 x5 x6 b s k - mean (tok x0 x1 x3 x4 x5 x6 b s))
              * (tok x0 x1 x3 x4 x5 x6 b s k - mean (tok x0 x1 x3 x4 x5 x6 b s))) + eps)
          * x7 (ix1 ch) + x8 (ix1 ch) := by
  rw [val_main_v38_apply, val_main_v35_apply, val_main_v32_apply, dev2_at, val_main_v31_apply, val_main_v34_apply,
    val_main_v33_apply, val_main_v37_apply, val_main_v36_apply]
  have e2 : val_main_v30 (F := Ideal) x0 x1 x3 x4 x5 x6 (idx_main_v31 (ix3 b s ch))
      = val_main_v30 (F := Ideal) x0 x1 x3 x4 x5 x6 (ix3 b s (0 : Fin 1)) := congrArg _ (by idx3)
  have e3 : x7 (idx_main_v33 (idx_main_v34 (ix3 b s ch))) = x7 (ix1 ch) := congrArg _ (by idx1)
  have e4 : x8 (idx_main_v36 (idx_main_v37 (ix3 b s ch))) = x8 (ix1 ch) := congrArg _ (by idx1)
  rw [e2, e3, e4, inv_at]
  rfl

/-- One plus the gate of the channel. -/
theorem gate_at (b : Fin 32) (s : Fin 4096) (ch : Fin 256) :
    val_main_v53 (F := Ideal) x2 x9 x10 (ix3 b s ch) = unit + val_main_v49 (F := Ideal) x2 x9 x10 (ix2 b ch) := by
  rw [val_main_v53_apply, val_main_v52_apply, val_main_v51_apply, val_main_cst_6_apply, val_main_v50_apply]
  exact congrArg (fun z : EReal => unit + z) (congrArg _ (by idx2))

/-- Back in the layout [image, channel, position], entry (b, ch, s) is channel ch of the normalised token. -/
theorem out_at (b : Fin 32) (ch : Fin 256) (s : Fin 4096) :
    val_main_v55 (F := Ideal) x0 x1 x2 x3 x4 x5 x6 x7 x8 x9 x10 (ix3 b ch s)
      = tokens (val_main_v0 (F := Ideal) x0) (val_main_v11 (F := Ideal) x1 x3 x4 x5 x6)
          (val_main_v49 (F := Ideal) x2 x9 x10) x7 x8 b ch s := by
  rw [val_main_v55_apply]
  have e : val_main_v54 (F := Ideal) x0 x1 x2 x3 x4 x5 x6 x7 x8 x9 x10 (idx_main_v55 (ix3 b ch s))
      = val_main_v54 (F := Ideal) x0 x1 x2 x3 x4 x5 x6 x7 x8 x9 x10 (ix3 b s ch) := congrArg _ (by idx3)
  rw [e, val_main_v54_apply, affine_at, gate_at]
  rfl

/-- The reference's result, as one function of its arguments. -/
theorem result_eq :
    val_main_v56 (F := Ideal) x0 x1 x2 x3 x4 x5 x6 x7 x8 x9 x10
      = result x0 (val_main_v11 (F := Ideal) x1 x3 x4 x5 x6) (val_main_v49 (F := Ideal) x2 x9 x10) x7 x8
          shapeCasts_S32x256x64x64_S32x256x4096 shapeCasts_S32x256x4096_S32x256x64x64 := by
  unfold val_main_v56 result
  refine congrArg (fun y => shapeCast S32x256x64x64 y shapeCasts_S32x256x4096_S32x256x64x64) ?_
  funext j
  obtain ⟨b, ch, s, rfl⟩ : ∃ (b : Fin 32) (ch : Fin 256) (s : Fin 4096), j = ix3 b ch s := ⟨j 0, j 1, j 2, eq_ix3 j⟩
  exact out_at x0 x1 x2 x3 x4 x5 x6 x7 x8 x9 x10 b ch s

end Cert.ReferenceIdeal.RefValue

end
-- ==== Proof.lean ====
/-
  The kernel normalises every spatial token of every image over its 256 channels, after adding the image's
  attention values, and multiplies by one plus the image's gate; the reference does the same on the transposed
  layout. At the ideal instance both results are one function of the arguments (Proof/Spec.lean):

  * the kernel's result array, block by block, and the line that re-lays it (Proof/Body.lean, Proof/KernelValue.lean);
  * the reference's result, operation by operation (Proof/RefValue.lean);
  * the attention and gate values are computed by the same host lines in both programs and are never opened.

  The sums over the channels are finite sums on the extended reals, so the order in which either program adds is
  immaterial, and no step needs the inputs to be finite. The three frames are the generated ones (the reference's is
  its generated run with the result dropped), and the idealisation rewrote nothing, so `preserves` is trivial.
-/
import proofs.«173593_j21775484191118_2_alg».proof.Defs
import proofs.«173593_j21775484191118_2_alg».proof.Proof.Gen.Kernel
import proofs.«173593_j21775484191118_2_alg».proof.Proof.Gen.Kernel.Skeleton
import proofs.«173593_j21775484191118_2_alg».proof.Proof.Gen.Kernel.Launch
import proofs.«173593_j21775484191118_2_alg».proof.Proof.Gen.Kernel.Points
import proofs.«173593_j21775484191118_2_alg».proof.Proof.Gen.Kernel.Frame
import proofs.«173593_j21775484191118_2_alg».proof.Proof.Gen.KernelIdeal
import proofs.«173593_j21775484191118_2_alg».proof.Proof.Gen.KernelIdeal.Skeleton
import proofs.«173593_j21775484191118_2_alg».proof.Proof.Gen.KernelIdeal.Launch
import proofs.«173593_j21775484191118_2_alg».proof.Proof.Gen.KernelIdeal.Points
import proofs.«173593_j21775484191118_2_alg».proof.Proof.Gen.KernelIdeal.Frame
import proofs.«173593_j21775484191118_2_alg».proof.Proof.Gen.ReferenceIdeal
import proofs.«173593_j21775484191118_2_alg».proof.Proof.Gen.Pre_finite_inputs
import proofs.«173593_j21775484191118_2_alg».proof.Proof.Gen.ReferenceIdeal.Run
import proofs.«173593_j21775484191118_2_alg».proof.Proof.Gen.ReferenceIdeal.Read
import proofs.«173593_j21775484191118_2_alg».proof.Proof.KernelValue
import proofs.«173593_j21775484191118_2_alg».proof.Proof.RefValue
import Idealize.ShloMosaic.Adequacy
import Idealize.ShloMosaic.Init

noncomputable section

namespace Cert.Proof

open Idealize.ShloMosaic Idealize.ShloMosaic.TcCoe Idealize.SL.Sem

/-- The attention values: both programs apply the same two projections to the text row. -/
theorem attn_eq (x1 : FVec Ideal Cert.KernelIdeal.S32x256 .f32) (x3 : FVec Ideal Cert.KernelIdeal.S256x256 .f32)
    (x4 : FVec Ideal Cert.KernelIdeal.S256 .f32) (x5 : FVec Ideal Cert.KernelIdeal.S256x256 .f32)
    (x6 : FVec Ideal Cert.KernelIdeal.S256 .f32) :
    Cert.ReferenceIdeal.Read.val_main_v11 (F := Ideal) x1 x3 x4 x5 x6 = Cert.KernelIdeal.KValue.attnK x1 x3 x4 x5 x6 := rfl

/-- The gate values: both programs apply the same projection and logistic function to the metrics row. -/
theorem gate_eq (x2 : FVec Ideal Cert.KernelIdeal.S32x256 .f32) (x9 : FVec Ideal Cert.KernelIdeal.S256x256 .f32)
    (x10 : FVec Ideal Cert.KernelIdeal.S256 .f32) :
    Cert.ReferenceIdeal.Read.val_main_v49 (F := Ideal) x2 x9 x10 = Cert.KernelIdeal.KValue.gateK x2 x9 x10 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result buffer and the reference's end at the same
    function of the arguments. -/
theorem algebraic : Cert.algebraic_KernelIdeal_ReferenceIdeal := by
  intro m ρ m' ρ' _ hagree
  refine ⟨fun c => Cert.KernelIdeal.KValue.resultOf m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v56_eq, Cert.ReferenceIdeal.RefValue.result_eq, attn_eq, gate_eq,
    a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
